-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S2x32x1024x1024 : Shape := ⟨4, ![2, 32, 1024, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S2x32x1024x1024 : S_.BroadcastsInDim S2x32x1024x1024 (![] : Fin 0 → Fin S2x32x1024x1024.rank)
  reducesTo_S2x32x1024x1024_S_d0_1_2_3 : S2x32x1024x1024.ReducesTo [0, 1, 2, 3] S_

variable [Facts]

def fn {F : FTy → Type} [FloatOps F] (main_arg0 : FVec F S32x512x1024 .f32) (main_arg1 : FVec F S2x32x1024x1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S2x32x1024x1024 .f32 := Host.absf main_arg1
  let main_cst_0 : FVec F S_ .f32 := constant S_ .f32 0x7F800000#32
  let main_v5 : FVec F S2x32x1024x1024 .f32 := broadcastInDim S2x32x1024x1024 ![] bcast_S_S2x32x1024x1024 main_cst_0
  let main_v6 : IVec S2x32x1024x1024 1 := cmpf .olt main_v4 main_v5
  let main_c_1 : IVec S_ 1 := constantI S_ 1 1#1
  let main_v7 : IVec S_ 1 := (fun x v => Host.reduce IntOp.andi x v reducesTo_S2x32x1024x1024_S_d0_1_2_3 h_S_) main_v6 main_c_1
  let main_v8 : IVec S_ 1 := andi main_v3 main_v7
  main_v8
-- ==== Kernel.lean ====
abbrev S32x512x1024 : Shape := ⟨3, ![32, 512, 1024]⟩
abbrev S2x32x1024x1024 : Shape := ⟨4, ![2, 32, 1024, 1024]⟩
abbrev S1x512x1024 : Shape := ⟨3, ![1, 512, 1024]⟩
abbrev S2x1x1024x1024 : Shape := ⟨4, ![2, 1, 1024, 1024]⟩
abbrev S1x1x1024x1024 : Shape := ⟨4, ![1, 1, 1024, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32x512x1024, .f32⟩
  | .hbm, ⟨1, _⟩ => ⟨S2x32x1024x1024, .f32⟩
  | .hbm, ⟨2, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S2x1x1024x1024, .f32⟩
  | .local _ .vmem, ⟨3, _⟩ => ⟨S2x1x1024x1024, .f32⟩
  | .local _ .vmem, ⟨4, _⟩ => ⟨S1x512x1024, .f32⟩
  | .local _ .vmem, ⟨5, _⟩ => ⟨S1x512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x1x1024x1024_S1x1x1024x1024_1_0_0_0 : ∀ a, (![1, 0, 0, 0] : Fin 4 → Nat) a + S1x1x1024x1024.size a ≤ S2x1x1024x1024.size a
  h_S1x1x1024x1024 : 0 < S1x1x1024x1024.numel
  shapeCasts_S1x1x1024x1024_S1024x1024 : S1x1x1024x1024.ShapeCasts S1024x1024
  reduces_S1024x1024_S1024 : S1024x1024.Reduces [0] S1024
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S2x1x1024x1024_S1x1x1024x1024_0_0_0_0 : ∀ a, (![0, 0, 0, 0] : Fin 4 → Nat) a + S1x1x1024x1024.size a ≤ S2x1x1024x1024.size a
  broadcasts_S1x1024_S512x1024 : S1x1024.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x1024x1024.size a ≤ S2x32x1024x1024.size a
  hwx0_1 : ∀ i : grid0.Coords, EltTy.bits .f32 = 32 ∨ (Rect.block (s := S2x32x1024x1024) S2x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S32x512x1024.size a
  hwx0_2 : ∀ i : grid0.Coords, EltTy.bits .f32 = 32 ∨ (Rect.block (s := S32x512x1024) S1x512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S2x32x1024x1024 : Shape := ⟨4, ![2, 32, 1024, 1024]⟩
abbrev S_ : Shape := ⟨0, ![]⟩
abbrev S1x32x1024x1024 : Shape := ⟨4, ![1, 32, 1024, 1024]⟩
abbrev S32x1024x1024 : Shape := ⟨3, ![32, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S2x32x1024x1024, .f32⟩
  | .hbm, ⟨2, _⟩ => ⟨S_, .f32⟩
  | .hbm, ⟨3, _⟩ => ⟨S32x512x1024, .f32⟩
  | .hbm, ⟨4, _⟩ => ⟨S32x512x1024, .f32⟩
  | .hbm, ⟨5, _⟩ => ⟨S1x32x1024x1024, .f32⟩
  | .hbm, ⟨6, _⟩ => ⟨S32x1024x1024, .f32⟩
  | .hbm, ⟨7, _⟩ => ⟨S32x512x1024, .f32⟩
  | .hbm, ⟨8, _⟩ => ⟨S1x32x1024x1024, .f32⟩
  | .hbm, ⟨9, _⟩ => ⟨S32x1024x1024, .f32⟩
  | .hbm, ⟨10, _⟩ => ⟨S32x512x1024, .f32⟩
  | .hbm, ⟨11, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S_S32x512x1024 : S_.BroadcastsInDim S32x512x1024 (![] : Fin 0 → Fin S32x512x1024.rank)
  slices_S2x32x1024x1024_S1x32x1024x1024_0_0_0_0 : S2x32x1024x1024.Slices ![0, 0, 0, 0] S1x32x1024x1024
  shapeCasts_S1x32x1024x1024_S32x1024x1024 : S1x32x1024x1024.ShapeCasts S32x1024x1024
  slices_S2x32x1024x1024_S1x32x1024x1024_1_0_0_0 : S2x32x1024x1024.Slices ![1, 0, 0, 0] S1x32x1024x1024
  dot_S32x512x1024_S32x1024x1024_S32x512x1024_2_1_1_2_0_0_wf : DotDims.WF S32x512x1024 S32x1024x1024 S32x512x1024 [2] [1] [1] [2] [0] [0]

variable [Facts₀]

def dot_S32x512x1024_S32x1024x1024_S32x512x1024_2_1_1_2_0_0 : DotDims S32x512x1024 S32x1024x1024 S32x512x1024 where
  lhsContracting := [2]
  rhsContracting := [1]
  lhsNonContracting := [1]
  rhsNonContracting := [2]
  lhsBatch := [0]
  rhsBatch := [0]
  wf := dot_S32x512x1024_S32x1024x1024_S32x512x1024_2_1_1_2_0_0_wf

class Facts : Prop extends Facts₀ where

variable [Facts]
-- ==== Proof.Spec.lean ====
/-
  The specification of the binarized dense layer, stated once for both programs, over the extended reals.

  For every plane p, row b and column o the layer's output is

      out[p, b, o] = Σ_k x[p, b, k] · w[0, p, k, o]  +  Σ_k (1 − x[p, b, k]) · w[1, p, k, o]        (two products)

  and the fused form that needs one matrix product only is

      out[p, b, o] = Σ_k x[p, b, k] · (w[0, p, k, o] − w[1, p, k, o])  +  Σ_k w[1, p, k, o]          (one product + column sum).

  The two agree whenever every entry read is a real number: then x · (a − b) = x · a − x · b and
  (1 − x) · b = b − x · b hold term by term, and a finite sum of reals splits over + and −. (On the
  extended reals the identity fails at infinite entries, where ∞ − ∞ appears on one side only: finiteness
  of the inputs is exactly what the step needs.)
-/
import Idealize.ShloMosaic.PureOps.Ideal
import Idealize.ShloMosaic.PureOps.IdealRules
import Idealize.ShloMosaic.Lib.ValueIdx

noncomputable section

open scoped BigOperators

namespace Cert.Binarized

open Idealize.ShloMosaic Idealize.ShloMosaic.ValueIdx

/-- The activations' shape [P, B, I] = [32, 512, 1024] (and the output's, [P, B, O]). -/
abbrev SX : Shape := ⟨3, ![32, 512, 1024]⟩
/-- The two weight stacks' shape [2, P, I, O] = [2, 32, 1024, 1024]. -/
abbrev SW : Shape := ⟨4, ![2, 32, 1024, 1024]⟩

/-! ## The algebra, over any finite index set -/

/-- The coercion of reals into the extended reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- ONE PRODUCT PLUS A COLUMN SUM IS TWO PRODUCTS, on real entries: with every x k, a k, b k a real number,
    Σ x·(a − b) + Σ b = Σ x·a + Σ (1 − x)·b. -/
theorem fused_eq_two {ι : Type*} [Fintype ι] (x a b : ι → EReal)
    (hx : ∀ k, ∃ r : ℝ, x k = (r : EReal)) (ha : ∀ k, ∃ r : ℝ, a k = (r : EReal)) (hb : ∀ k, ∃ r : ℝ, b k = (r : EReal)) :
    (∑ k, x k * (a k - b k)) + ∑ k, b k = (∑ k, x k * a k) + ∑ k, ((1 : EReal) - x k) * b k := by
  choose xr hxr using hx
  choose ar har using ha
  choose br hbr using hb
  simp only [hxr, har, hbr, ← EReal.coe_one, ← EReal.coe_sub, ← EReal.coe_mul, ← coe_sum, ← EReal.coe_add]
  refine congrArg _ ?_
  rw [← Finset.sum_add_distrib, ← Finset.sum_add_distrib]
  exact Finset.sum_congr rfl fun k _ => by ring

/-! ## The two forms of the layer, index by index -/

/-- The fused form at (p, b, o): one product against the difference of the two weight planes, plus the column sum of
    the second plane. -/
def fusedAt (x : SX.Idx → EReal) (w : SW.Idx → EReal) (p : Fin 32) (b : Fin 512) (o : Fin 1024) : EReal :=
  (∑ k : Fin 1024, x (ix3 p b k) * (w (ix4 (0 : Fin 2) p k o) - w (ix4 (1 : Fin 2) p k o)))
    + ∑ k : Fin 1024, w (ix4 (1 : Fin 2) p k o)

/-- The two-product form at (p, b, o), the constant one being any extended real `one` (the reference's literal). -/
def twoAt (one : EReal) (x : SX.Idx → EReal) (w : SW.Idx → EReal) (p : Fin 32) (b : Fin 512) (o : Fin 1024) : EReal :=
  (∑ k : Fin 1024, x (ix3 p b k) * w (ix4 (0 : Fin 2) p k o))
    + ∑ k : Fin 1024, (one - x (ix3 p b k)) * w (ix4 (1 : Fin 2) p k o)

/-- The fused form as a whole array. -/
def fused (x : SX.Idx → EReal) (w : SW.Idx → EReal) : SX.Idx → EReal := fun i => fusedAt x w (i 0) (i 1) (i 2)

/-- The two-product form as a whole array. -/
def two (one : EReal) (x : SX.Idx → EReal) (w : SW.Idx → EReal) : SX.Idx → EReal := fun i => twoAt one x w (i 0) (i 1) (i 2)

/-- On arrays of real entries the fused form is the two-product form with the constant 1. -/
theorem fused_eq_two_arr (x : SX.Idx → EReal) (w : SW.Idx → EReal)
    (hx : ∀ i, ∃ r : ℝ, x i = (r : EReal)) (hw : ∀ i, ∃ r : ℝ, w i = (r : EReal)) :
    fused x w = two 1 x w := by
  funext i
  exact fused_eq_two _ _ _ (fun _ => hx _) (fun _ => hw _) (fun _ => hw _)

/-- The f32 word 0x3F800000 is the real number one. -/
theorem one_f32 : Ideal.ofBits .f32 0x3F800000#32 = 1 := IdealRules.sign_bit.ideal_onePat .f32

end Cert.Binarized

end
-- ==== Proof.RefSide.lean ====
/-
  The reference program read index by index: its result array is the two-product form of the layer,

      out[p, b, o] = Σ_k x[p, b, k] · w[0, p, k, o] + Σ_k (c − x[p, b, k]) · w[1, p, k, o],

  with c the f32 literal 1.0 the program subtracts from. The reference slices each weight plane out of the
  stacked array and reshapes [1, 32, 1024, 1024] to [32, 1024, 1024]; read at an index, plane s at (p, k, o) is the
  stacked array at (s, p, k, o), because the row-major position ((p·1024 + k)·1024 + o) splits back into the same
  three coordinates. Each batched dot_general contracts the last axis of its left operand with the middle axis of its
  right one, plane by plane.
-/
import proofs.«127478_j58780922413282_2_alg».proof.Proof.Gen.ReferenceIdeal.Read
import proofs.«127478_j58780922413282_2_alg».proof.Proof.Spec

noncomputable section

open scoped BigOperators

namespace Cert.Binarized.Ref

open Cert.ReferenceIdeal Cert.ReferenceIdeal.Gen Cert.ReferenceIdeal.Read
open Idealize.ShloMosaic Idealize.ShloMosaic.ValueIdx

/-- The left operand of either product at (p, b, o), contraction coordinate k: the activations at (p, b, k). -/
theorem left_idx4 (p : Fin 32) (b : Fin 512) (o : Fin 1024) (k : Fin 1024) :
    lidx_main_v4 (ix3 p b o) k = ix3 p b k :=
  funext fun a => Fin.ext (by match a with | ⟨0, _⟩ => rfl | ⟨1, _⟩ => rfl | ⟨2, _⟩ => rfl)

theorem left_idx7 (p : Fin 32) (b : Fin 512) (o : Fin 1024) (k : Fin 1024) :
    lidx_main_v7 (ix3 p b o) k = ix3 p b k :=
  funext fun a => Fin.ext (by match a with | ⟨0, _⟩ => rfl | ⟨1, _⟩ => rfl | ⟨2, _⟩ => rfl)

/-- The first weight plane at (p, k, o) is the stacked array at (0, p, k, o). -/
theorem plane0_idx (p : Fin 32) (b : Fin 512) (o : Fin 1024) (k : Fin 1024) :
    idx_main_v2 (idx_main_v3 (ridx_main_v4 (ix3 p b o) k)) = ix4 (0 : Fin 2) p k o :=
  funext fun a => Fin.ext (by
    have hp := p.isLt; have hk := k.isLt; have ho := o.isLt
    match a with
    | ⟨0, _⟩ => rfl
    | ⟨1, _⟩ => show ((p.val * 1024 + k.val) * 1024 + o.val) / 1048576 % 32 = p.val; omega
    | ⟨2, _⟩ => show ((p.val * 1024 + k.val) * 1024 + o.val) / 1024 % 1024 = k.val; omega
    | ⟨3, _⟩ => show ((p.val * 1024 + k.val) * 1024 + o.val) % 1024 = o.val; omega)

/-- The second weight plane at (p, k, o) is the stacked array at (1, p, k, o). -/
theorem plane1_idx (p : Fin 32) (b : Fin 512) (o : Fin 1024) (k : Fin 1024) :
    idx_main_v5 (idx_main_v6 (ridx_main_v7 (ix3 p b o) k)) = ix4 (1 : Fin 2) p k o :=
  funext fun a => Fin.ext (by
    have hp := p.isLt; have hk := k.isLt; have ho := o.isLt
    match a with
    | ⟨0, _⟩ => rfl
    | ⟨1, _⟩ => show ((p.val * 1024 + k.val) * 1024 + o.val) / 1048576 % 32 = p.val; omega
    | ⟨2, _⟩ => show ((p.val * 1024 + k.val) * 1024 + o.val) / 1024 % 1024 = k.val; omega
    | ⟨3, _⟩ => show ((p.val * 1024 + k.val) * 1024 + o.val) % 1024 = o.val; omega)

/-- THE REFERENCE IS THE TWO-PRODUCT FORM, with the constant its literal 1.0. -/
theorem ref_eq (x : FVec Ideal SX .f32) (w : FVec Ideal SW .f32) :
    val_main_v8 (F := Ideal) x w = two (Ideal.ofBits .f32 0x3F800000#32) x w := by
  funext i
  obtain ⟨p, b, o, rfl⟩ : ∃ (p : Fin 32) (b : Fin 512) (o : Fin 1024), i = ix3 p b o := ⟨i 0, i 1, i 2, eq_ix3 i⟩
  rw [val_main_v8_apply, val_main_v4_apply, val_main_v7_apply]
  simp only [val_main_v3_apply, val_main_v2_apply, val_main_v6_apply, val_main_v5_apply, val_main_v1_apply,
    val_main_v0_apply, val_main_cst_apply, Ideal.addf_def, Ideal.subf_def, Ideal.ofBits_def,
    left_idx4, left_idx7, plane0_idx, plane1_idx]
  rfl

end Cert.Binarized.Ref

end
-- ==== Proof.Payload.lean ====
/-
  One grid step's arithmetic, read at one output element. The body loads the second weight plane w1 [1024, 1024], the
  activation block x [512, 1024] and the first weight plane w0, and stores

      acc + bias,   acc = x · (w0 − w1)  (one matrix product into a zero accumulator),   bias[o] = Σ_k w1[k, o]

  with the bias row broadcast over the 512 rows. At the exact values a rounding to bf16 is the identity, the matrix
  product at (b, o) is Σ_k x[b, k] · (w0 − w1)[k, o], and the column sum at o is Σ_k w1[k, o]: so the stored element
  at (b, o) is the fused form of the layer on this step's blocks.
-/
import proofs.«127478_j58780922413282_2_alg».proof.Proof.Gen.KernelIdeal.Skeleton
import proofs.«127478_j58780922413282_2_alg».proof.Proof.Spec
import Idealize.ShloMosaic.Lib.ValueLayout
import Idealize.ShloMosaic.PureOps.Ideal.Laws

noncomputable section

open scoped BigOperators

namespace Cert.Binarized.Body

open Cert.KernelIdeal Cert.KernelIdeal.Gen
open Idealize.ShloMosaic Idealize.ShloMosaic.ValueIdx

/-- A [1, 1, a, b] array cast to [a, b] reads, at (i, j), the operand at (0, 0, i, j): the two row-major positions
    are the same number. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The column sum: an add-reduction of a [1024, 1024] matrix over its rows, read at column o, is Σ_k of the
    entries (k, o). -/
theorem colsum_apply (v : FVec Ideal S1024x1024 .f32) (h : S1024x1024.Reduces [0] S1024) (hφ : FKind.Formats .f32)
    (hacc : (0x00000000#32 : BitVec 32) = FKind.add.neutral .f32 hφ) (o : Fin 1024) :
    multiReduction .add [0] S1024 v 0x00000000#32 h hφ hacc (ix1 o) = ∑ k : Fin 1024, v (ix2 k o) := by
  refine (Ideal.multiReduction_add_single v 0x00000000#32 h hφ hacc (ix1 o)).trans ?_
  refine Finset.sum_congr rfl fun k _ => congrArg v ?_
  funext a
  match a with
  | ⟨0, _⟩ => rfl
  | ⟨1, _⟩ => rfl

/-- The product's left operand index at output (b, o): its row coordinate is the output's row … -/
theorem lhs_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- … and its column coordinate the contraction coordinate. -/
theorem lhs_col (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
/-- The right operand's row coordinate is the contraction coordinate … -/
theorem rhs_row (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
/-- … and its column coordinate the output's column. -/
theorem rhs_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The matrix product of a [512, 1024] block with a [1024, 1024] one into a zero accumulator, read at (b, o), is
    Σ_k l[b, k] · r[k, o]. -/
theorem matmul_zero_apply (l : FVec Ideal S512x1024 .bf16) (r : FVec Ideal S1024x1024 .bf16) (b : Fin 512) (o : Fin 1024) :
    matmul dot_S512x1024_S1024x1024_S512x1024_1_0_0_1_n_n none l r (constant (F := Ideal) S512x1024 .f32 0x00000000#32) (ix2 b o)
      = ∑ k : Fin 1024, l (ix2 b k) * r (ix2 k o) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 b o)
      ((contrEquiv1 dot_S512x1024_S1024x1024_S512x1024_1_0_0_1_n_n 1024 rfl rfl).symm k) = ix2 b k :=
    funext fun a => Fin.ext (by
      match a with
      | ⟨0, _⟩ => exact lhs_row _ _
      | ⟨1, _⟩ => exact (lhs_col _ _).trans hk)
  have er : dot_S512x1024_S1024x1024_S512x1024_1_0_0_1_n_n.rhsIdx (ix2 b o)
      ((contrEquiv1 dot_S512x1024_S1024x1024_S512x1024_1_0_0_1_n_n 1024 rfl rfl).symm k) = ix2 k o :=
    funext fun a => Fin.ext (by
      match a with
      | ⟨0, _⟩ => exact (rhs_row _ _).trans hk
      | ⟨1, _⟩ => exact rhs_col _ _)
  rw [el, er]

/-- THE STORED ELEMENT: with w1, x, w0 the three loaded blocks, the step's payload at (0, b, o) is
    Σ_k x[0, b, k] · (w0[0, 0, k, o] − w1[0, 0, k, o]) + Σ_k w1[0, 0, k, o]. -/
theorem pay_apply (w1 : Vec Ideal S1x1x1024x1024 .f32) (x : Vec Ideal S1x512x1024 .f32) (w0 : Vec Ideal S1x1x1024x1024 .f32)
    (b : Fin 512) (o : Fin 1024) :
    k0_pay1 (F := Ideal) w1 x w0 (ix3 (0 : Fin 1) b o)
      = (∑ k : Fin 1024, x (ix3 (0 : Fin 1) b k) * (w0 (ix4 (0 : Fin 1) (0 : Fin 1) k o) - w1 (ix4 (0 : Fin 1) (0 : Fin 1) k o)))
        + ∑ k : Fin 1024, w1 (ix4 (0 : Fin 1) (0 : Fin 1) k o) := by
  unfold k0_pay1
  dsimp only
  refine (shapeCast_ab_1ab_apply _ _ (0 : Fin 1) b o).trans ?_
  refine (addf_apply _ _ (ix2 b o)).trans ?_
  refine congrArg₂ (· + ·) ?_ ?_
  · refine (matmul_zero_apply _ _ b o).trans ?_
    refine Finset.sum_congr rfl fun k _ => ?_
    refine congrArg₂ (· * ·) ?_ ?_
    · exact shapeCast_1ab_ab_apply x _ b k
    · refine congrArg₂ (· - ·) ?_ ?_
      · exact shapeCast_11ab_ab_apply w0 _ k o
      · exact shapeCast_11ab_ab_apply w1 _ k o
  · refine (broadcastTo_1b_ab_apply _ _ b o).trans ?_
    refine (shapeCast_a_1a_apply _ _ (0 : Fin 1) o).trans ?_
    refine (colsum_apply _ _ _ _ o).trans ?_
    exact Finset.sum_congr rfl fun k _ => shapeCast_11ab_ab_apply w1 _ k o

end Cert.Binarized.Body

end
-- ==== Proof.Blocks.lean ====
/-
  From one grid step to the whole output array.

  The grid has one step per plane p = 0 … 31. Step p stages rows [p, :, :] of the activations as a [1, 512, 1024]
  block, the two planes [:, p, :, :] of the stacked weights as a [2, 1, 1024, 1024] block, and writes its
  [1, 512, 1024] result back to rows [p, :, :] of the output. So element (0, b, k) of the activation block is
  x[p, b, k], element (s, 0, k, o) of the weight block is w[s, p, k, o], and the step's stored element (0, b, o) —
  the fused form on its blocks — is the fused form of the whole arrays at (p, b, o). The 32 written blocks tile the
  output (index (p, b, o) lies in step p's block), hence after the run the output array IS the fused form of the
  two argument arrays.
-/
import proofs.«127478_j58780922413282_2_alg».proof.Proof.Gen.KernelIdeal.Value
import proofs.«127478_j58780922413282_2_alg».proof.Proof.Payload
import proofs.«127478_j58780922413282_2_alg».proof.Proof.Spec
import Idealize.ShloMosaic.Lib.Pipeline.Value

noncomputable section

open scoped BigOperators

namespace Cert.Binarized.Run

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-- The three index maps over the grid: at step t the activation and output blocks are block (t, 0, 0) of their
    arrays, the weight block is block (0, t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 4) = 0 ∧ win0_1.index t (1 : Fin 4) = t.val ∧ win0_1.index t (2 : Fin 4) = 0
    ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-! ## The staged blocks as parts of the argument arrays -/

/-- Element (0, b, k) of step t's activation block is x[t, b, k]. -/
theorem xblk_apply (c : Dev nD) (t : Fin cfg0.N) (p : Fin 32) (hp : p.val = t.val) (b : Fin 512) (k : Fin 1024) :
    (iblk m c 0 t : Vec Ideal S1x512x1024 .f32) (ix3 (0 : Fin 1) b k)
      = (m ((c : Thread nD τ).loc main_arg0) : FVec Ideal S32x512x1024 .f32) (ix3 p b k) := by
  obtain ⟨e0, e1, e2, -⟩ := idx_facts t
  unfold iblk
  rw [View.read_apply]
  show V m c main_arg0 _ = m (c.tc.loc main_arg0) _
  unfold V
  refine congrArg _ ?_
  funext a
  apply Fin.ext
  match a with
  | ⟨0, _⟩ => show win0_0.index t (0 : Fin 3) * 1 + 1 * 0 = p.val; rw [e0, hp]; omega
  | ⟨1, _⟩ => show win0_0.index t (1 : Fin 3) * 512 + 1 * b.val = b.val; rw [e1]; omega
  | ⟨2, _⟩ => show win0_0.index t (2 : Fin 3) * 1024 + 1 * k.val = k.val; rw [e2]; omega

/-- Element (s, 0, k, o) of step t's weight block is w[s, t, k, o]. -/
theorem wblk_apply (c : Dev nD) (t : Fin cfg0.N) (p : Fin 32) (hp : p.val = t.val) (s : Fin 2) (k o : Fin 1024) :
    (iblk m c 1 t : Vec Ideal S2x1x1024x1024 .f32) (ix4 s (0 : Fin 1) k o)
      = (m ((c : Thread nD τ).loc main_arg1) : FVec Ideal S2x32x1024x1024 .f32) (ix4 s p k o) := by
  obtain ⟨-, -, -, e0, e1, e2, e3, -⟩ := idx_facts t
  unfold iblk
  rw [View.read_apply]
  show V m c main_arg1 _ = m (c.tc.loc main_arg1) _
  unfold V
  refine congrArg _ ?_
  funext a
  apply Fin.ext
  match a with
  | ⟨0, _⟩ => show win0_1.index t (0 : Fin 4) * 2 + 1 * s.val = s.val; rw [e0]; omega
  | ⟨1, _⟩ => show win0_1.index t (1 : Fin 4) * 1 + 1 * 0 = p.val; rw [e1, hp]; omega
  | ⟨2, _⟩ => show win0_1.index t (2 : Fin 4) * 1024 + 1 * k.val = k.val; rw [e2]; omega
  | ⟨3, _⟩ => show win0_1.index t (3 : Fin 4) * 1024 + 1 * o.val = o.val; rw [e3]; omega

/-! ## One step's stored element is the fused form of the whole arrays -/

/-- For blocks that are plane p of the arrays X and W, the body's stored element (0, b, o) — computed from the
    second weight plane, the activations and the first weight plane as the body loads them — is the fused form of
    X and W at (p, b, o). -/
theorem step_eq (X : FVec Ideal SX .f32) (W : FVec Ideal SW .f32) (p : Fin 32)
    (x0 : Vec Ideal S1x512x1024 .f32) (x1 : Vec Ideal S2x1x1024x1024 .f32)
    (hx0 : ∀ (b : Fin 512) (k : Fin 1024), x0 (ix3 (0 : Fin 1) b k) = X (ix3 p b k))
    (hx1 : ∀ (s : Fin 2) (k o : Fin 1024), x1 (ix4 s (0 : Fin 1) k o) = W (ix4 s p k o))
    (b : Fin 512) (o : Fin 1024) :
    k0_pay1 (F := Ideal) (View.ld x1 r0_0) (View.ld x0 r0_1) (View.ld x1 r0_2) (ix3 (0 : Fin 1) b o) = fusedAt X W p b o := by
  refine (Body.pay_apply _ _ _ b o).trans ?_
  unfold fusedAt
  refine congrArg₂ (· + ·) (Finset.sum_congr rfl fun k _ => congrArg₂ (· * ·) ?_ (congrArg₂ (· - ·) ?_ ?_))
    (Finset.sum_congr rfl fun k _ => ?_)
  · refine Eq.trans (congrArg x0 ?_) (hx0 b k)
    funext a
    apply Fin.ext
    match a with
    | ⟨0, _⟩ => rfl
    | ⟨1, _⟩ => show 0 + 1 * b.val = b.val; omega
    | ⟨2, _⟩ => show 0 + 1 * k.val = k.val; omega
  · refine Eq.trans (congrArg x1 ?_) (hx1 0 k o)
    funext a
    apply Fin.ext
    match a with
    | ⟨0, _⟩ => rfl
    | ⟨1, _⟩ => rfl
    | ⟨2, _⟩ => show 0 + 1 * k.val = k.val; omega
    | ⟨3, _⟩ => show 0 + 1 * o.val = o.val; omega
  · refine Eq.trans (congrArg x1 ?_) (hx1 1 k o)
    funext a
    apply Fin.ext
    match a with
    | ⟨0, _⟩ => rfl
    | ⟨1, _⟩ => rfl
    | ⟨2, _⟩ => show 0 + 1 * k.val = k.val; omega
    | ⟨3, _⟩ => show 0 + 1 * o.val = o.val; omega
  · refine Eq.trans (congrArg x1 ?_) (hx1 1 k o)
    funext a
    apply Fin.ext
    match a with
    | ⟨0, _⟩ => rfl
    | ⟨1, _⟩ => rfl
    | ⟨2, _⟩ => show 0 + 1 * k.val = k.val; omega
    | ⟨3, _⟩ => show 0 + 1 * o.val = o.val; omega

/-! ## What each step writes back, the cover, the array -/

/-- WHAT STEP t WRITES BACK is block t of the fused form of the argument arrays. -/
theorem flushed_eq (c : Dev nD) (t : Fin cfg0.N) :
    (dats m 0 c).flushed 2 t = ((cfg0.win 2).blk t).view.read (Elt Ideal)
      (fused (m ((c : Thread nD τ).loc main_arg0)) (m ((c : Thread nD τ).loc main_arg1))) := by
  have hp : t.val < 32 := lt_of_lt_of_eq t.isLt (show cfg0.N = 32 from N_0)
  obtain ⟨-, -, -, -, -, -, -, e0, e1, e2⟩ := idx_facts t
  rw [flushed2]
  unfold out0_2
  rw [View.canon_unit_zero zero3]
  funext j
  obtain ⟨u, b, o, rfl⟩ : ∃ (u : Fin 1) (b : Fin 512) (o : Fin 1024), j = ix3 u b o := ⟨j 0, j 1, j 2, eq_ix3 j⟩
  obtain rfl : u = 0 := Subsingleton.elim _ _
  have hemb : ((cfg0.win 2).blk t).view.emb (ix3 (0 : Fin 1) b o) = ix3 (⟨t.val, hp⟩ : Fin 32) b o := by
    funext a
    apply Fin.ext
    match a with
    | ⟨0, _⟩ => show win0_2.index t (0 : Fin 3) * 1 + 1 * 0 = t.val; rw [e0]; omega
    | ⟨1, _⟩ => show win0_2.index t (1 : Fin 3) * 512 + 1 * b.val = b.val; rw [e1]; omega
    | ⟨2, _⟩ => show win0_2.index t (2 : Fin 3) * 1024 + 1 * o.val = o.val; rw [e2]; omega
  show k0_pay1 (F := Ideal) (View.ld (iblk m c 1 t) r0_0) (View.ld (iblk m c 0 t) r0_1) (View.ld (iblk m c 1 t) r0_2)
      (ix3 (0 : Fin 1) b o)
    = fused (m ((c : Thread nD τ).loc main_arg0)) (m ((c : Thread nD τ).loc main_arg1))
        (((cfg0.win 2).blk t).view.emb (ix3 (0 : Fin 1) b o))
  rw [hemb]
  exact step_eq (m ((c : Thread nD τ).loc main_arg0)) (m ((c : Thread nD τ).loc main_arg1)) ⟨t.val, hp⟩
    (iblk m c 0 t) (iblk m c 1 t) (fun b k => xblk_apply m c t ⟨t.val, hp⟩ rfl b k)
    (fun s k o => wblk_apply m c t ⟨t.val, hp⟩ rfl s k o) b o

/-- An index of the output is in step t's block iff each coordinate is in the block's range on its axis. -/
theorem mem_blk (t : Fin cfg0.N) (i : S32x512x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v0).slice (win0_2.rect t)).set ↔ _
  rw [View.set_slice_whole, Rect.mem_set_unit]
  exact Iff.rfl

/-- THE COVER: output index (p, b, o) lies in the block step p writes back. -/
theorem cover (i : S32x512x1024.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 1024 := (i 2).isLt
  obtain ⟨t, ht⟩ : ∃ t : Fin cfg0.N, t.val = (i 0).val := ⟨⟨(i 0).val, by rw [show cfg0.N = 32 from N_0]; exact hi0⟩, rfl⟩
  obtain ⟨-, -, -, -, -, -, -, e0, e1, e2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 512 ≤ (i 1).val ∧ (i 1).val < win0_2.index t (1 : Fin 3) * 512 + 512
    rw [e1]; omega
  | ⟨2, _⟩ =>
    show win0_2.index t (2 : Fin 3) * 1024 ≤ (i 2).val ∧ (i 2).val < win0_2.index t (2 : Fin 3) * 1024 + 1024
    rw [e2]; omega

/-- THE OUTPUT ARRAY after the run is the fused form of the two argument arrays. -/
theorem final (c : Dev nD) : (dats m 0 c).arrAt 2 cfg0.N
    = fused (m ((c : Thread nD τ).loc main_arg0)) (m ((c : Thread nD τ).loc main_arg1)) :=
  (dats m 0 c).arrAt_eq_of_cover 2 (fused (m ((c : Thread nD τ).loc main_arg0)) (m ((c : Thread nD τ).loc main_arg1)))
    (fun t _ => flushed_eq m c t) cover

/-- THE RUN, READ: every weakly fair execution of the kernel program terminates with the output array at the fused form
    of the arguments and the arguments unchanged. -/
theorem run : θ_run defs (onTc (τ := τ) (main (F := Ideal))) ⟨m, fun _ => 0, ρ⟩ fun r => ∀ c : Dev nD,
      r.2.mem ((c : Thread nD τ).loc main_v0)
        = fused (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Binarized.Run

end
-- ==== Proof.Finite.lean ====
/-
  What the precondition gives: every entry of both inputs is a real number.

  The precondition is the conjunction of two "all entries satisfy |v| < +∞" tests, each an and-reduction of a
  comparison over the whole array, and the claim assumes its value is 1. An and-reduction that comes out 1 met only
  1s, so at every index |v| < +∞ holds; an extended real whose absolute value max(v, −v) is below +∞ is neither
  +∞ nor −∞, hence the image of a real.
-/
import proofs.«127478_j58780922413282_2_alg».proof.Pre_finite_inputs
import proofs.«127478_j58780922413282_2_alg».proof.Proof.Spec
import Idealize.ShloMosaic.Lib.ReduceAll
import Idealize.ShloMosaic.Lib.Pipeline.Value

noncomputable section

namespace Cert.Binarized.Finite

open Idealize.ShloMosaic Idealize.ShloMosaic.ValueIdx

/-- The f32 word 0x7F800000 is +∞. -/
theorem inf_f32 : Ideal.ofBits .f32 0x7F800000#32 = ⊤ := by simp [Ideal.ofBits, Ideal.ieee]

/-- An extended real whose absolute value compares below +∞ is a real number. -/
theorem real_of_abs_lt_inf (v : EReal)
    (h : Ideal.cmp .olt (max v (-v)) (Ideal.ofBits .f32 0x7F800000#32) = 1#1) : ∃ r : ℝ, v = (r : EReal) := by
  rw [inf_f32] at h
  induction v using EReal.rec with
  | bot => simp [Ideal.cmp] at h
  | top => simp [Ideal.cmp] at h
  | coe r => exact ⟨r, rfl⟩

instance : Subsingleton Cert.Pre_finite_inputs.S_.Idx := ⟨fun _ _ => funext fun d => d.elim0⟩

variable [Cert.Pre_finite_inputs.Facts]

/-- THE PRECONDITION READ BACK: if the finiteness test of the two input arrays is 1, every entry of each is real. -/
theorem real_entries (x : FVec Ideal SX .f32) (w : FVec Ideal SW .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ix0
  dsimp only [Cert.Pre_finite_inputs.fn] at h0
  obtain ⟨hx, hw⟩ := IntOp.andi_eq_one.1 h0
  refine ⟨fun i => ?_, fun i => ?_⟩
  · have e := Host.reduce_andi_all _ _ _ _ _ hx i
    rw [cmpf_apply, broadcastInDim_apply _ _ _ i ix0 (fun a => a.elim0)] at e
    exact real_of_abs_lt_inf _ e
  · have e := Host.reduce_andi_all _ _ _ _ _ hw i
    rw [cmpf_apply, broadcastInDim_apply _ _ _ i ix0 (fun a => a.elim0)] at e
    exact real_of_abs_lt_inf _ e

end Cert.Binarized.Finite

end
-- ==== Proof.lean ====
/-
  A binarized dense layer, 32 planes of [512, 1024] activations against two stacks of [1024, 1024] weights:

      out[p, b, o] = Σ_k x[p, b, k] · w[0, p, k, o] + Σ_k (1 − x[p, b, k]) · w[1, p, k, o].

  The reference computes exactly that, with two batched matrix products. The kernel runs one grid step per plane p and
  uses the rearrangement

      out[p, b, o] = Σ_k x[p, b, k] · (w[0, p, k, o] − w[1, p, k, o]) + Σ_k w[1, p, k, o]

  — one matrix product against the difference of the two weight planes, plus the column sum of the second plane
  broadcast over the rows. Its roundings of the product's operands to bf16 are identities on the exact values, so at
  the exact values the two programs differ only by that rearrangement. The rearrangement is an identity of real
  numbers (x · (a − b) = x · a − x · b, (1 − x) · b = b − x · b, finite sums split over + and −) and fails on
  infinite entries; the precondition — every entry of both inputs has absolute value below +∞ — is exactly what
  makes every entry a real, and is used for nothing else.

  The modules: Spec (the two forms and the identity over a finite index set), RefSide (the reference's result is the
  two-product form), Payload (one step's stored element is the fused form on its blocks), Blocks (the steps' blocks
  tile the output, so the kernel's result array is the fused form of the arguments), Finite (the precondition gives real
  entries). Here: the three termination-and-frame statements, the (empty) list of rewrites between the kernel and its
  exact-value reading, and the equality of results.
-/
import proofs.«127478_j58780922413282_2_alg».proof.Defs
import proofs.«127478_j58780922413282_2_alg».proof.Proof.Gen.Kernel
import proofs.«127478_j58780922413282_2_alg».proof.Proof.Gen.Kernel.Skeleton
import proofs.«127478_j58780922413282_2_alg».proof.Proof.Gen.Kernel.Launch
import proofs.«127478_j58780922413282_2_alg».proof.Proof.Gen.Kernel.Points
import proofs.«127478_j58780922413282_2_alg».proof.Proof.Gen.Kernel.Frame
import proofs.«127478_j58780922413282_2_alg».proof.Proof.Gen.KernelIdeal
import proofs.«127478_j58780922413282_2_alg».proof.Proof.Gen.KernelIdeal.Skeleton
import proofs.«127478_j58780922413282_2_alg».proof.Proof.Gen.KernelIdeal.Launch
import proofs.«127478_j58780922413282_2_alg».proof.Proof.Gen.KernelIdeal.Points
import proofs.«127478_j58780922413282_2_alg».proof.Proof.Gen.KernelIdeal.Frame
import proofs.«127478_j58780922413282_2_alg».proof.Proof.Gen.ReferenceIdeal
import proofs.«127478_j58780922413282_2_alg».proof.Proof.Gen.Pre_finite_inputs
import proofs.«127478_j58780922413282_2_alg».proof.Proof.Gen.KernelIdeal.Value
import proofs.«127478_j58780922413282_2_alg».proof.Proof.Gen.ReferenceIdeal.Run
import proofs.«127478_j58780922413282_2_alg».proof.Proof.Gen.ReferenceIdeal.Read
import proofs.«127478_j58780922413282_2_alg».proof.Proof.Spec
import proofs.«127478_j58780922413282_2_alg».proof.Proof.RefSide
import proofs.«127478_j58780922413282_2_alg».proof.Proof.Blocks
import proofs.«127478_j58780922413282_2_alg».proof.Proof.Finite
import Idealize.ShloMosaic.Adequacy
import Idealize.ShloMosaic.Init

noncomputable section

namespace Cert.Proof

open Idealize.ShloMosaic Idealize.SL.Sem

/-- The kernel as printed terminates on every fair schedule, faults nowhere and leaves its arguments as they were. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel at the exact values rewrote no operation: there is nothing to justify. -/
theorem preserves : Cert.preserves_Kernel_KernelIdeal := trivial

/-- EQUAL RESULTS. The kernel's output array ends at the fused form of its arguments; the reference's at the
    two-product form of the same arrays with the constant its literal 1.0, which is the real number one; the inputs'
    entries are real by the precondition, and on real entries the two forms are one function. -/
theorem algebraic : Cert.algebraic_KernelIdeal_ReferenceIdeal := by
  intro m ρ m' ρ' hpre hagree
  refine ⟨fun c => Cert.Binarized.fused
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Binarized.Run.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Binarized.Finite.real_entries _ _ (hpre c)
  rw [(hagree c).1, (hagree c).2, Cert.ReferenceIdeal.Read.val_main_v8_eq, Cert.Binarized.Ref.ref_eq,
    Cert.Binarized.one_f32]
  exact (Cert.Binarized.fused_eq_two_arr _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
